-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x48x48x128 : Shape := ⟨4, ![16, 48, 48, 128]⟩
abbrev S128x512 : Shape := ⟨2, ![128, 512]⟩
abbrev S512 : Shape := ⟨1, ![512]⟩
abbrev S_ : Shape := ⟨0, ![]⟩

class Facts : Prop where
  bcast_S_S16x48x48x128 : S_.BroadcastsInDim S16x48x48x128 (![] : Fin 0 → Fin S16x48x48x128.rank)
  reducesTo_S16x48x48x128_S_d0_1_2_3 : S16x48x48x128.ReducesTo [0, 1, 2, 3] S_
  h_S_ : 0 < S_.numel
  bcast_S_S128x512 : S_.BroadcastsInDim S128x512 (![] : Fin 0 → Fin S128x512.rank)
  reducesTo_S128x512_S_d0_1 : S128x512.ReducesTo [0, 1] S_
  bcast_S_S512 : S_.BroadcastsInDim S512 (![] : Fin 0 → Fin S512.rank)
  reducesTo_S512_S_d0 : S512.ReducesTo [0] S_

variable [Facts]

def fn {F : FTy → Type} [FloatOps F] (main_arg0 : FVec F S16x48x48x128 .f32) (main_arg1 : FVec F S128x512 .f32) (main_arg2 : FVec F S512 .f32) : IVec S_ 1 :=
  let main_v0 : FVec F S16x48x48x128 .f32 := Host.absf main_arg0
  let main_cst : FVec F S_ .f32 := constant S_ .f32 0x7F800000#32
  let main_v1 : FVec F S16x48x48x128 .f32 := broadcastInDim S16x48x48x128 ![] bcast_S_S16x48x48x128 main_cst
  let main_v2 : IVec S16x48x48x128 1 := cmpf .olt main_v0 main_v1
  let main_c : IVec S_ 1 := constantI S_ 1 1#1
  let main_v3 : IVec S_ 1 := (fun x v => Host.reduce IntOp.andi x v reducesTo_S16x48x48x128_S_d0_1_2_3 h_S_) main_v2 main_c
  let main_v4 : FVec F S128x512 .f32 := Host.absf main_arg1
  let main_cst_0 : FVec F S_ .f32 := constant S_ .f32 0x7F800000#32
  let main_v5 : FVec F S128x512 .f32 := broadcastInDim S128x512 ![] bcast_S_S128x512 main_cst_0
  let main_v6 : IVec S128x512 1 := cmpf .olt main_v4 main_v5
  let main_c_1 : IVec S_ 1 := constantI S_ 1 1#1
  let main_v7 : IVec S_ 1 := (fun x v => Host.reduce IntOp.andi x v reducesTo_S128x512_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  main_v13
-- ==== Kernel.lean ====
abbrev S16x48x48x128 : Shape := ⟨4, ![16, 48, 48, 128]⟩
abbrev S128x512 : Shape := ⟨2, ![128, 512]⟩
abbrev S512 : Shape := ⟨1, ![512]⟩
abbrev S16x2304x128 : Shape := ⟨3, ![16, 2304, 128]⟩
abbrev S_ : Shape := ⟨0, ![]⟩
abbrev S1x512 : Shape := ⟨2, ![1, 512]⟩
abbrev S16x2304x512 : Shape := ⟨3, ![16, 2304, 512]⟩
abbrev S1x1152x128 : Shape := ⟨3, ![1, 1152, 128]⟩
abbrev S1x1152x512 : Shape := ⟨3, ![1, 1152, 512]⟩
abbrev S1152x128 : Shape := ⟨2, ![1152, 128]⟩
abbrev S1152x512 : Shape := ⟨2, ![1152, 512]⟩
abbrev S1152 : Shape := ⟨1, ![1152]⟩
abbrev S1152x1 : Shape := ⟨2, ![1152, 1]⟩

abbrev nBuf : Space → Nat
  | .hbm => 11
  | .vmem => 7
  | .smem => 0
  | _ => 0

abbrev bufTy : (tb : Table) → Fin (tcTables nBuf tb) → BufTy
  | .hbm, ⟨0, _⟩ => ⟨S16x48x48x128, .f32⟩
  | .hbm, ⟨1, _⟩ => ⟨S128x512, .f32⟩
  | .hbm, ⟨2, _⟩ => ⟨S512, .f32⟩
  | .hbm, ⟨3, _⟩ => ⟨S16x2304x128, .f32⟩
  | .hbm, ⟨4, _⟩ => ⟨S128x512, .bf16⟩
  | .hbm, ⟨5, _⟩ => ⟨S128x512, .f32⟩
  | .hbm, ⟨6, _⟩ => ⟨S_, .f32⟩
  | .hbm, ⟨7, _⟩ => ⟨S512, .f32⟩
  | .hbm, ⟨8, _⟩ => ⟨S1x512, .f32⟩
  | .hbm, ⟨9, _⟩ => ⟨S1x512, .f32⟩
  | .hbm, ⟨10, _⟩ => ⟨S16x2304x512, .f32⟩
  | .local _ .vmem, ⟨0, _⟩ => ⟨S1x1152x128, .f32⟩
  | .local _ .vmem, ⟨1, _⟩ => ⟨S1x1152x128, .f32⟩
  | .local _ .vmem, ⟨2, _⟩ => ⟨S128x512, .bf16⟩
  | .local _ .vmem, ⟨3, _⟩ => ⟨S1x512, .f32⟩
  | .local _ .vmem, ⟨4, _⟩ => ⟨S1x512, .f32⟩
  | .local _ .vmem, ⟨5, _⟩ => ⟨S1x1152x512, .f32⟩
  | .local _ .vmem, ⟨6, _⟩ => ⟨S1x1152x512, .f32⟩
  | _, _ => ⟨S16x48x48x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1152x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S128x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1152x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S16x48x48x128_S16x2304x128 : S16x48x48x128.ShapeCasts S16x2304x128
  bitsLt_bf16_f32 : FTy.bits .bf16 < FTy.bits .f32
  reducesTo_S128x512_S512_d0 : S128x512.ReducesTo [0] S512
  h_S_ : 0 < S_.numel
  bcast_S512_S1x512_1 : S512.BroadcastsInDim S1x512 (![1] : Fin 1 → Fin S1x512.rank)
  shapeCasts_S512_S1x512 : S512.ShapeCasts S1x512
  inb_S1x1152x128_S1x1152x128_0_0_0 : ∀ a, (![0, 0, 0] : Fin 3 → Nat) a + S1x1152x128.size a ≤ S1x1152x128.size a
  h_S1x1152x128 : 0 < S1x1152x128.numel
  shapeCasts_S1x1152x128_S1152x128 : S1x1152x128.ShapeCasts S1152x128
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  reduces_S1152x128_S1152 : S1152x128.Reduces [1] S1152
  shapeCasts_S1152_S1152x1 : S1152.ShapeCasts S1152x1
  broadcasts_S1152x1_S1152x512 : S1152x1.Broadcasts S1152x512
  broadcasts_S1x512_S1152x512 : S1x512.Broadcasts S1152x512
  inb_S1x1152x512_S1x1152x512_0_0_0 : ∀ a, (![0, 0, 0] : Fin 3 → Nat) a + S1x1152x512.size a ≤ S1x1152x512.size a
  h_S1x1152x512 : 0 < S1x1152x512.numel
  shapeCasts_S1x1152x512_S1152x512 : S1x1152x512.ShapeCasts S1152x512
  shapeCasts_S1152x512_S1x1152x512 : S1152x512.ShapeCasts S1x1152x512
  dot_S1152x128_S128x512_S1152x512_1_0_0_1_n_n_wf : DotDims.WF S1152x128 S128x512 S1152x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1152x128.size a ≤ S16x2304x128.size a
  hwx0_0 : ∀ i : grid0.Coords, EltTy.bits .f32 = 32 ∨ (Rect.block (s := S16x2304x128) S1x1152x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x512.size a ≤ S128x512.size a
  hwx0_1 : ∀ i : grid0.Coords, EltTy.bits .bf16 = 32 ∨ (Rect.block (s := S128x512) S128x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1152x512.size a ≤ S16x2304x512.size a
  hwx0_4 : ∀ i : grid0.Coords, EltTy.bits .f32 = 32 ∨ (Rect.block (s := S16x2304x512) S1x1152x512.size (cc0_transform_4 i) (hinb0_4 i)).WholeWords (EltTy.packing .f32)

variable [Facts₀]

def dot_S1152x128_S128x512_S1152x512_1_0_0_1_n_n : DotDims S1152x128 S128x512 S1152x512 where
  lhsContracting := [1]
  rhsContracting := [0]
  lhsNonContracting := [0]
  rhsNonContracting := [1]
  lhsBatch := []
  rhsBatch := []
  wf := dot_S1152x128_S128x512_S1152x512_1_0_0_1_n_n_wf

abbrev win0_0 : Pipeline.Window sig grid0 :=
  Pipeline.Window.ofSpec (Memref.whole main_v0) S1x1152x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x1152x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16x48x48x128 : Shape := ⟨4, ![16, 48, 48, 128]⟩
abbrev S128x512 : Shape := ⟨2, ![128, 512]⟩
abbrev S512 : Shape := ⟨1, ![512]⟩
abbrev S16x2304x128 : Shape := ⟨3, ![16, 2304, 128]⟩
abbrev S_ : Shape := ⟨0, ![]⟩
abbrev S16x2304 : Shape := ⟨2, ![16, 2304]⟩
abbrev S16x2304x1 : Shape := ⟨3, ![16, 2304, 1]⟩
abbrev S16x2304x512 : Shape := ⟨3, ![16, 2304, 512]⟩
abbrev S1x1x512 : Shape := ⟨3, ![1, 1, 512]⟩

abbrev nBuf : Space → Nat
  | .hbm => 27
  | .vmem => 0
  | .smem => 0
  | _ => 0

abbrev bufTy : (tb : Table) → Fin (tcTables nBuf tb) → BufTy
  | .hbm, ⟨0, _⟩ => ⟨S16x48x48x128, .f32⟩
  | .hbm, ⟨1, _⟩ => ⟨S128x512, .f32⟩
  | .hbm, ⟨2, _⟩ => ⟨S512, .f32⟩
  | .hbm, ⟨3, _⟩ => ⟨S16x2304x128, .f32⟩
  | .hbm, ⟨4, _⟩ => ⟨S16x2304x128, .f32⟩
  | .hbm, ⟨5, _⟩ => ⟨S_, .f32⟩
  | .hbm, ⟨6, _⟩ => ⟨S16x2304, .f32⟩
  | .hbm, ⟨7, _⟩ => ⟨S16x2304x1, .f32⟩
  | .hbm, ⟨8, _⟩ => ⟨S128x512, .f32⟩
  | .hbm, ⟨9, _⟩ => ⟨S_, .f32⟩
  | .hbm, ⟨10, _⟩ => ⟨S512, .f32⟩
  | .hbm, ⟨11, _⟩ => ⟨S16x2304x512, .f32⟩
  | .hbm, ⟨12, _⟩ => ⟨S1x1x512, .f32⟩
  | .hbm, ⟨13, _⟩ => ⟨S16x2304x512, .f32⟩
  | .hbm, ⟨14, _⟩ => ⟨S16x2304x512, .f32⟩
  | .hbm, ⟨15, _⟩ => ⟨S16x2304x512, .f32⟩
  | .hbm, ⟨16, _⟩ => ⟨S_, .f32⟩
  | .hbm, ⟨17, _⟩ => ⟨S16x2304x512, .f32⟩
  | .hbm, ⟨18, _⟩ => ⟨S16x2304x512, .f32⟩
  | .hbm, ⟨19, _⟩ => ⟨S16x2304x512, .f32⟩
  | .hbm, ⟨20, _⟩ => ⟨S_, .f32⟩
  | .hbm, ⟨21, _⟩ => ⟨S16x2304x512, .f32⟩
  | .hbm, ⟨22, _⟩ => ⟨S16x2304x512, .f32⟩
  | .hbm, ⟨23, _⟩ => ⟨S16x2304x512, .f32⟩
  | .hbm, ⟨24, _⟩ => ⟨S1x1x512, .f32⟩
  | .hbm, ⟨25, _⟩ => ⟨S16x2304x512, .f32⟩
  | .hbm, ⟨26, _⟩ => ⟨S16x2304x512, .f32⟩
  | _, _ => ⟨S16x48x48x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]

class Facts₀ : Prop where
  shapeCasts_S16x48x48x128_S16x2304x128 : S16x48x48x128.ShapeCasts S16x2304x128
  reducesTo_S16x2304x128_S16x2304_d2 : S16x2304x128.ReducesTo [2] S16x2304
  h_S_ : 0 < S_.numel
  bcast_S16x2304_S16x2304x1_0_1 : S16x2304.BroadcastsInDim S16x2304x1 (![0, 1] : Fin 2 → Fin S16x2304x1.rank)
  reducesTo_S128x512_S512_d0 : S128x512.ReducesTo [0] S512
  bcast_S512_S1x1x512_2 : S512.BroadcastsInDim S1x1x512 (![2] : Fin 1 → Fin S1x1x512.rank)
  bcast_S16x2304x1_S16x2304x512_0_1_2 : S16x2304x1.BroadcastsInDim S16x2304x512 (![0, 1, 2] : Fin 3 → Fin S16x2304x512.rank)
  bcast_S1x1x512_S16x2304x512_0_1_2 : S1x1x512.BroadcastsInDim S16x2304x512 (![0, 1, 2] : Fin 3 → Fin S16x2304x512.rank)
  bcast_S_S16x2304x512 : S_.BroadcastsInDim S16x2304x512 (![] : Fin 0 → Fin S16x2304x512.rank)
  dot_S16x2304x128_S128x512_S16x2304x512_2_0_01_1_n_n_wf : DotDims.WF S16x2304x128 S128x512 S16x2304x512 [2] [0] [0, 1] [1] [] []

variable [Facts₀]

def dot_S16x2304x128_S128x512_S16x2304x512_2_0_01_1_n_n : DotDims S16x2304x128 S128x512 S16x2304x512 where
  lhsContracting := [2]
  rhsContracting := [0]
  lhsNonContracting := [0, 1]
  rhsNonContracting := [1]
  lhsBatch := []
  rhsBatch := []
  wf := dot_S16x2304x128_S128x512_S16x2304x512_2_0_01_1_n_n_wf

class Facts : Prop extends Facts₀ where

variable [Facts]
-- ==== Proof.LibKeepdims.lean ====
/-
  Layout and contraction operations of a row-wise kernel body, read at an index written by coordinates, at the
  ideal values. A sum kept as a column (`keepdims`) goes through two layout steps the coordinate forms below read:
  a vector `[a]` recast as a column `[a, 1]`, and a column `[a, 1]` broadcast along the rows of `[a, b]`.
  With them: a lane sum of a matrix read at a row as the sum over that row, and a matrix product into a zero
  accumulator read at `(r, n)` as the sum over the contracted coordinate of row `r` times column `n`.
-/
import Idealize.ShloMosaic.Lib.ValueLayout
import Idealize.ShloMosaic.Lib.ValueIdx
import Idealize.ShloMosaic.PureOps.Ideal.Laws

noncomputable section

namespace Cert.LibKeepdims

open Idealize.ShloMosaic Idealize.ShloMosaic.ValueIdx

variable {α : Type}

/-- A vector `[a]` recast as the column `[a, 1]` reads, at `(i, u)`, the vector at `i`: the row-major position of
    `(i, u)` in `[a, 1]` is `i · 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The exponential of a vector, read at an index, is the exponential of the entry. -/
theorem exp_apply {s : Shape} {φ : FTy} (v : FVec Ideal s φ) (i : s.Idx) : exp v i = Ideal.exp (v i) := rfl

/-- The host's exponential of an array likewise. -/
theorem hostExp_apply {s : Shape} {φ : FTy} (v : FVec Ideal s φ) (i : s.Idx) : Host.exp v i = Ideal.exp (v i) := rfl

/-- A float scalar constant at the ideal values is the extended real its pattern denotes. -/
theorem scalar_ofBits (φ : FTy) (b : BitVec φ.bits) : Scalar.ofBits (F := Ideal) φ b = Ideal.ofBits φ b := rfl

end Cert.LibKeepdims

end
-- ==== Proof.GaussSpec.lean ====
/-
  The Gaussian kernel's value, entry by entry, as a function of whole arrays. For a batch of points `X[b, p, ·]` (128
  features each), centres `W[·, n]` and a bias `B[n]`,
      gauss X W B (b, p, n) = exp (-1 · ((Σ_k X[b,p,k]² + Σ_k W[k,n]²) - 2 · Σ_k X[b,p,k] · W[k,n])) + B[n],
  the squared distance ‖x − w‖² written as ‖x‖² + ‖w‖² − 2 x·w. The same value from the four arrays a blocked
  implementation is handed — the points, the centres, the ROW of the centres' squared norms and the bias as a row —
  is `ofOperands`; it is `gauss` once each of those arrays is what its name says (`ofOperands_eq_gauss`).
-/
import Idealize.ShloMosaic.PureOps.Ideal
import Idealize.ShloMosaic.Lib.ValueIdx

noncomputable section

namespace Cert.GaussSpec

open Idealize.ShloMosaic Idealize.ShloMosaic.ValueIdx

/-- One entry from its four ingredients: `exp (-1 · ((sx + sw) - 2 · p)) + b` for the point's squared norm `sx`, the
    centre's squared norm `sw`, their inner product `p` and the bias `b`; `-1` and `2` are what the two float words
    denote. -/
def entry (sx sw p b : EReal) : EReal :=
  Ideal.exp (Ideal.ofBits .f32 0xBF800000#32 * ((sx + sw) - Ideal.ofBits .f32 0x40000000#32 * p)) + b

/-- The entry at batch `b`, point `p`, centre `n`, from the points `A0`, the centres `A1`, the row `A2` of the
    centres' squared norms and the bias row `A3`. -/
def ofOperandsAt (A0 : (⟨3, ![16, 2304, 128]⟩ : Shape).Idx → EReal) (A1 : (⟨2, ![128, 512]⟩ : Shape).Idx → EReal)
    (A2 A3 : (⟨2, ![1, 512]⟩ : Shape).Idx → EReal) (b : Fin 16) (p : Fin 2304) (n : Fin 512) : EReal :=
  entry (∑ k : Fin 128, A0 (ix3 b p k) * A0 (ix3 b p k)) (A2 (ix2 (0 : Fin 1) n))
    (∑ k : Fin 128, A0 (ix3 b p k) * A1 (ix2 k n)) (A3 (ix2 (0 : Fin 1) n))

/-- The whole result from those four arrays. -/
def ofOperands (A0 : (⟨3, ![16, 2304, 128]⟩ : Shape).Idx → EReal) (A1 : (⟨2, ![128, 512]⟩ : Shape).Idx → EReal)
    (A2 A3 : (⟨2, ![1, 512]⟩ : Shape).Idx → EReal) : (⟨3, ![16, 2304, 512]⟩ : Shape).Idx → EReal := fun i =>
  ofOperandsAt A0 A1 A2 A3 ⟨(i 0).val, (i 0).isLt⟩ ⟨(i 1).val, (i 1).isLt⟩ ⟨(i 2).val, (i 2).isLt⟩

/-- The entry at batch `b`, point `p`, centre `n` from the points, the centres and the bias. -/
def gaussAt (X : (⟨3, ![16, 2304, 128]⟩ : Shape).Idx → EReal) (W : (⟨2, ![128, 512]⟩ : Shape).Idx → EReal)
    (B : (⟨1, ![512]⟩ : Shape).Idx → EReal) (b : Fin 16) (p : Fin 2304) (n : Fin 512) : EReal :=
  entry (∑ k : Fin 128, X (ix3 b p k) * X (ix3 b p k)) (∑ k : Fin 128, W (ix2 k n) * W (ix2 k n))
    (∑ k : Fin 128, X (ix3 b p k) * W (ix2 k n)) (B (ix1 n))

/-- The Gaussian kernel of every point against every centre. -/
def gauss (X : (⟨3, ![16, 2304, 128]⟩ : Shape).Idx → EReal) (W : (⟨2, ![128, 512]⟩ : Shape).Idx → EReal)
    (B : (⟨1, ![512]⟩ : Shape).Idx → EReal) : (⟨3, ![16, 2304, 512]⟩ : Shape).Idx → EReal := fun i =>
  gaussAt X W B ⟨(i 0).val, (i 0).isLt⟩ ⟨(i 1).val, (i 1).isLt⟩ ⟨(i 2).val, (i 2).isLt⟩

theorem gauss_ix3 (X : (⟨3, ![16, 2304, 128]⟩ : Shape).Idx → EReal) (W : (⟨2, ![128, 512]⟩ : Shape).Idx → EReal)
    (B : (⟨1, ![512]⟩ : Shape).Idx → EReal) (b : Fin 16) (p : Fin 2304) (n : Fin 512) :
    gauss X W B (ix3 b p n) = gaussAt X W B b p n := rfl

/-- When the second array is the centres, the third the row of their squared norms and the fourth the bias as a row,
    the value from the four arrays is the Gaussian kernel. -/
theorem ofOperands_eq_gauss (X : (⟨3, ![16, 2304, 128]⟩ : Shape).Idx → EReal) (A1 W : (⟨2, ![128, 512]⟩ : Shape).Idx → EReal)
    (A2 A3 : (⟨2, ![1, 512]⟩ : Shape).Idx → EReal) (B : (⟨1, ![512]⟩ : Shape).Idx → EReal)
    (h1 : ∀ (k : Fin 128) (n : Fin 512), A1 (ix2 k n) = W (ix2 k n))
    (h2 : ∀ n : Fin 512, A2 (ix2 (0 : Fin 1) n) = ∑ k : Fin 128, W (ix2 k n) * W (ix2 k n))
    (h3 : ∀ n : Fin 512, A3 (ix2 (0 : Fin 1) n) = B (ix1 n)) :
    ofOperands X A1 A2 A3 = gauss X W B := by
  funext i
  unfold ofOperands gauss ofOperandsAt gaussAt
  simp only [h1, h2, h3]

end Cert.GaussSpec

end
-- ==== Proof.BodyAt.lean ====
/-
  The kernel body's stored value at one entry. For one block of 1152 rows of `x` (each of 128 features), the 128 × 512
  matrix of centres `w`, the row `w2` of the centres' squared norms and the bias row `bb`, the body stores at row `r`
  and centre `n`
      exp (-1 · ((Σ_k x[r,k]² + w2[n]) - 2 · Σ_k x[r,k] · w[k,n])) + bb[n]:
  the squared distance expanded as ‖x‖² + ‖w‖² − 2 x·w. At the ideal values the rounding to bf16 on the way into the
  matrix product is the identity, the lane sum is the sum over the row, and the product into a zero accumulator is
  the sum over the contracted coordinate.
-/
import proofs.«169911_j31138512896695_2_alg».proof.Proof.Gen.KernelIdeal.Skeleton
import proofs.«169911_j31138512896695_2_alg».proof.Proof.LibKeepdims
import proofs.«169911_j31138512896695_2_alg».proof.Proof.GaussSpec

noncomputable section

namespace Cert.KernelIdeal.BodyAt

open Cert.KernelIdeal Cert.KernelIdeal.Gen Idealize.ShloMosaic Idealize.ShloMosaic.ValueIdx Cert.LibKeepdims Cert.GaussSpec

/-- The lane sum of a 1152 × 128 matrix, read at row `r`, is the sum over the row. -/
theorem laneSum_apply (v : FVec Ideal S1152x128 .f32) (hφ : FKind.Formats .f32)
    (hacc : (0x00000000#32 : BitVec 32) = 0x00000000#32) (r : Fin 1152) :
    multiReduction .add [1] S1152 v 0x00000000#32 reduces_S1152x128_S1152 hφ hacc (ix1 r) = ∑ k : Fin 128, v (ix2 r k) :=
  (Ideal.multiReduction_add_single v 0x00000000#32 reduces_S1152x128_S1152 hφ hacc (ix1 r)).trans
    (Finset.sum_congr rfl fun k _ => congrArg v (funext fun a => Fin.ext (by
      match a with
      | ⟨0, _⟩ => rfl
      | ⟨1, _⟩ => rfl)))

/-- The product's left operand index at output `i` keeps the output's row. -/
theorem lhs_row (i : S1152x512.Idx) (q : dot_S1152x128_S128x512_S1152x512_1_0_0_1_n_n.contr.Idx) : (dot_S1152x128_S128x512_S1152x512_1_0_0_1_n_n.lhsIdx i q 0).val = (i 0).val := by
  unfold DotDims.lhsIdx
  rw [dif_neg (show ¬(0 : Fin S1152x128.rank) ∈ dot_S1152x128_S128x512_S1152x512_1_0_0_1_n_n.lhsBatch by decide),
    dif_pos (show (0 : Fin S1152x128.rank) ∈ dot_S1152x128_S128x512_S1152x512_1_0_0_1_n_n.lhsNonContracting by decide)]
  rfl

/-- Its right operand index keeps the output's column. -/
theorem rhs_col (i : S1152x512.Idx) (q : dot_S1152x128_S128x512_S1152x512_1_0_0_1_n_n.contr.Idx) : (dot_S1152x128_S128x512_S1152x512_1_0_0_1_n_n.rhsIdx i q 1).val = (i 1).val := by
  unfold DotDims.rhsIdx
  rw [dif_neg (show ¬(1 : Fin S128x512.rank) ∈ dot_S1152x128_S128x512_S1152x512_1_0_0_1_n_n.rhsBatch by decide),
    dif_pos (show (1 : Fin S128x512.rank) ∈ dot_S1152x128_S128x512_S1152x512_1_0_0_1_n_n.rhsNonContracting by decide)]
  rfl

/-- The matrix product of a 1152 × 128 block with the 128 × 512 centres into a zero accumulator, read at `(r, n)`,
    is the sum over the feature `k` of `l[r,k] · c[k,n]`. -/
theorem matmul_at (l : FVec Ideal S1152x128 .bf16) (c : FVec Ideal S128x512 .bf16) (r : Fin 1152) (n : Fin 512) :
    matmul dot_S1152x128_S128x512_S1152x512_1_0_0_1_n_n none l c (constant S1152x512 .f32 0x00000000#32) (ix2 r n)
      = ∑ k : Fin 128, l (ix2 r k) * c (ix2 k n) := by
  simp only [matmul]
  rw [Ideal.matmul_constant_zero_apply,
    ← Equiv.sum_comp (ValueIdx.contrEquiv1 dot_S1152x128_S128x512_S1152x512_1_0_0_1_n_n 128 rfl rfl).symm]
  refine Finset.sum_congr rfl fun k _ => ?_
  have hk := ValueIdx.contrEquiv1_symm_val dot_S1152x128_S128x512_S1152x512_1_0_0_1_n_n 128 rfl rfl k
  have el : dot_S1152x128_S128x512_S1152x512_1_0_0_1_n_n.lhsIdx (ix2 r n) ((ValueIdx.contrEquiv1 dot_S1152x128_S128x512_S1152x512_1_0_0_1_n_n 128 rfl rfl).symm k) = ix2 r k :=
    funext fun a => Fin.ext (by
      match a with
      | ⟨0, _⟩ => exact lhs_row _ _
      | ⟨1, _⟩ => exact (dot_S1152x128_S128x512_S1152x512_1_0_0_1_n_n.lhsIdx_val_of_single rfl _ _).trans hk)
  have er : dot_S1152x128_S128x512_S1152x512_1_0_0_1_n_n.rhsIdx (ix2 r n) ((ValueIdx.contrEquiv1 dot_S1152x128_S128x512_S1152x512_1_0_0_1_n_n 128 rfl rfl).symm k) = ix2 k n :=
    funext fun a => Fin.ext (by
      match a with
      | ⟨0, _⟩ => exact (dot_S1152x128_S128x512_S1152x512_1_0_0_1_n_n.rhsIdx_val_of_single rfl _ _).trans hk
      | ⟨1, _⟩ => exact rhs_col _ _)
  rw [el, er]

/-- The body's stored value at local row `r` and centre `n`. -/
theorem body_at (x0 : Vec Ideal S1x1152x128 .f32) (x1 : Vec Ideal S128x512 .bf16) (x2 x3 : Vec Ideal S1x512 .f32)
    (u : Fin 1) (r : Fin 1152) (n : Fin 512) :
    k0_pay1 (F := Ideal) x0 x1 x2 x3 (ix3 u r n)
      = entry (∑ k : Fin 128, x0 (ix3 (0 : Fin 1) r k) * x0 (ix3 (0 : Fin 1) r k)) (x2 (ix2 (0 : Fin 1) n))
          (∑ k : Fin 128, x0 (ix3 (0 : Fin 1) r k) * x1 (ix2 k n)) (x3 (ix2 (0 : Fin 1) n)) := by
  unfold k0_pay1 entry
  simp only [shapeCast_ab_1ab_apply, addf_apply, subf_apply, mulf_apply, exp_apply, broadcast_apply, scalar_ofBits,
    broadcastTo_1b_ab_apply, broadcastTo_a1_ab_apply, shapeCast_a_a1_apply, shapeCast_self, matmul_at,
    truncf_apply, shapeCast_1ab_ab_apply]
  rw [laneSum_apply]
  simp only [mulf_apply, shapeCast_1ab_ab_apply]

/-- The same entry read off whole arrays: when the block `x0` holds rows of the points `A0` (local row `r` is point
    `p` of batch `b`), `x1` the centres, `x2` and `x3` the two rows, at the block's column `n'` which is the arrays'
    column `n`, the stored value is the arrays' entry at `(b, p, n)`. -/
theorem block_entry (A0 : S16x2304x128.Idx → EReal) (A1 : S128x512.Idx → EReal) (A2 A3 : S1x512.Idx → EReal)
    (x0 : Vec Ideal S1x1152x128 .f32) (x1 : Vec Ideal S128x512 .bf16) (x2 x3 : Vec Ideal S1x512 .f32)
    (u : Fin 1) (r : Fin 1152) (n' : Fin 512) (b : Fin 16) (p : Fin 2304) (n : Fin 512)
    (h0 : ∀ k : Fin 128, x0 (ix3 (0 : Fin 1) r k) = A0 (ix3 b p k))
    (h1 : ∀ k : Fin 128, x1 (ix2 k n') = A1 (ix2 k n))
    (h2 : x2 (ix2 (0 : Fin 1) n') = A2 (ix2 (0 : Fin 1) n))
    (h3 : x3 (ix2 (0 : Fin 1) n') = A3 (ix2 (0 : Fin 1) n)) :
    k0_pay1 (F := Ideal) x0 x1 x2 x3 (ix3 u r n') = ofOperandsAt A0 A1 A2 A3 b p n := by
  rw [body_at]
  unfold ofOperandsAt
  simp only [h0, h1, h2, h3]

end Cert.KernelIdeal.BodyAt

end
-- ==== Proof.Blocks.lean ====
/-
  From blocks to the whole result. The grid has 16 × 2 points; point `(b, h)` is handed rows `1152 h … 1152 h + 1151` of
  batch `b` of the points, the whole centres, the whole row of squared norms and the whole bias row, and writes back
  rows `1152 h … 1152 h + 1151` of batch `b` of the result. What it writes is the entry-wise value of the four whole
  arrays restricted to those rows; the 32 blocks tile the 16 × 2304 × 512 result (row `p` of batch `b` lies in the block
  of point `(b, p / 1152)`), so after the run the result array is that entry-wise value everywhere.
-/
import proofs.«169911_j31138512896695_2_alg».proof.Proof.Gen.KernelIdeal.Value
import proofs.«169911_j31138512896695_2_alg».proof.Proof.BodyAt
import proofs.«169911_j31138512896695_2_alg».proof.Proof.GaussSpec
import Idealize.ShloMosaic.Lib.Pipeline.Value

noncomputable section

namespace Cert.KernelIdeal.Blocks

open Cert.KernelIdeal Cert.KernelIdeal.Gen Idealize.ShloMosaic Idealize.ShloMosaic.TcCoe Idealize.SL.Sem
open Idealize.ShloMosaic.Pipeline (Dat)
open Idealize.ShloMosaic.ValueIdx Cert.GaussSpec Cert.KernelIdeal.BodyAt

variable (m : (ℓ : Loc nD τ sig) → Buf (Elt Ideal) ℓ) (ρ : Dev nD → PrngReg)

theorem zero3 : (![0, 0, 0] : Fin 3 → Nat) = fun _ => 0 := funext fun a => by fin_cases a <;> rfl
theorem zero2 : (![0, 0] : Fin 2 → Nat) = fun _ => 0 := funext fun a => by fin_cases a <;> rfl

/-- The result array's contents: the entry-wise value of the four operand arrays as the grid finds them. -/
abbrev result (c : Dev nD) : Buf (Elt Ideal) ((c : Thread nD τ).loc main_v6) :=
  ofOperands (V m c main_v0) (V m c main_v1) (V m c main_v4) (V m c main_v5)

/-- The block indices over the grid: the points' block moves with the result's block along batch and rows and stays at
    feature block 0; the centres and the two rows always take block (0, 0); the result's block index is (b, h, 0) with
    b ≤ 15 and h ≤ 1. -/
theorem block_indices : ∀ t : Fin cfg0.N,
    win0_0.index t (0 : Fin 3) = win0_4.index t (0 : Fin 3) ∧ win0_0.index t (1 : Fin 3) = win0_4.index t (1 : Fin 3)
    ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) ≤ 15 ∧ win0_4.index t (1 : Fin 3) ≤ 1 ∧ win0_4.index t (2 : Fin 3) = 0 :=
  (by decide +kernel : ∀ t : Fin grid0.N, _)

/-- Every (batch, half) is some grid point's result block. -/
theorem block_onto : ∀ (q0 : Fin 16) (q1 : Fin 2), ∃ t : Fin cfg0.N, win0_4.index t = ![q0.val, q1.val, 0] :=
  (by decide +kernel : ∀ (q0 : Fin 16) (q1 : Fin 2), ∃ t : Fin grid0.N, win0_4.index t = ![q0.val, q1.val, 0])

/-- What point `t` writes back is its block of `result`. -/
theorem flushed_eq (c : Dev nD) (t : Fin cfg0.N) :
    (dats m 0 c).flushed 4 t = ((cfg0.win 4).blk t).view.read (Elt Ideal) (result m c) := by
  rw [Value.flushed4]
  unfold out0_4
  rw [View.canon_unit_zero zero3]
  simp only [View.ld_unit_zero (S := S1x1152x128) zero3, View.ld_unit_zero (S := S128x512) zero2,
    View.ld_unit_zero (S := S1x512) zero2]
  obtain ⟨e00, e01, e02, e10, e11, e20, e21, e30, e31, b0, b1, e42⟩ := block_indices t
  refine funext fun (y : S1x1152x512.Idx) => ?_
  obtain ⟨u, r, n', rfl⟩ : ∃ (u : Fin 1) (r : Fin 1152) (n' : Fin 512), y = ix3 u r n' := ⟨y 0, y 1, y 2, eq_ix3 y⟩
  have hu : u.val = 0 := by omega
  show k0_pay1 (F := Ideal) (iblk m c 0 t) (iblk m c 1 t) (iblk m c 2 t) (iblk m c 3 t) (ix3 u r n')
    = ofOperandsAt (V m c main_v0) (V m c main_v1) (V m c main_v4) (V m c main_v5)
        ⟨((((cfg0.win 4).blk t).view.emb (ix3 u r n')) 0).val, _⟩ ⟨((((cfg0.win 4).blk t).view.emb (ix3 u r n')) 1).val, _⟩
        ⟨((((cfg0.win 4).blk t).view.emb (ix3 u r n')) 2).val, _⟩
  refine block_entry (V m c main_v0) (V m c main_v1) (V m c main_v4) (V m c main_v5)
    (iblk m c 0 t) (iblk m c 1 t) (iblk m c 2 t) (iblk m c 3 t) u r n' _ _ _ (fun k => ?_) (fun k => ?_) ?_ ?_
  · show V m c main_v0 (((cfg0.win 0).blk t).view.emb (ix3 (0 : Fin 1) r k)) = V m c main_v0 _
    refine congrArg (V m c main_v0) (funext fun a => Fin.ext ?_)
    match a with
    | ⟨0, _⟩ => show win0_0.index t (0 : Fin 3) * 1 + 1 * 0 = win0_4.index t (0 : Fin 3) * 1 + 1 * u.val; omega
    | ⟨1, _⟩ => show win0_0.index t (1 : Fin 3) * 1152 + 1 * r.val = win0_4.index t (1 : Fin 3) * 1152 + 1 * r.val; omega
    | ⟨2, _⟩ => show win0_0.index t (2 : Fin 3) * 128 + 1 * k.val = k.val; omega
  · show V m c main_v1 (((cfg0.win 1).blk t).view.emb (ix2 k n')) = V m c main_v1 _
    refine congrArg (V m c main_v1) (funext fun a => Fin.ext ?_)
    match a with
    | ⟨0, _⟩ => show win0_1.index t (0 : Fin 2) * 128 + 1 * k.val = k.val; omega
    | ⟨1, _⟩ => show win0_1.index t (1 : Fin 2) * 512 + 1 * n'.val = win0_4.index t (2 : Fin 3) * 512 + 1 * n'.val; omega
  · show V m c main_v4 (((cfg0.win 2).blk t).view.emb (ix2 (0 : Fin 1) n')) = V m c main_v4 _
    refine congrArg (V m c main_v4) (funext fun a => Fin.ext ?_)
    match a with
    | ⟨0, _⟩ => show win0_2.index t (0 : Fin 2) * 1 + 1 * 0 = 0; omega
    | ⟨1, _⟩ => show win0_2.index t (1 : Fin 2) * 512 + 1 * n'.val = win0_4.index t (2 : Fin 3) * 512 + 1 * n'.val; omega
  · show V m c main_v5 (((cfg0.win 3).blk t).view.emb (ix2 (0 : Fin 1) n')) = V m c main_v5 _
    refine congrArg (V m c main_v5) (funext fun a => Fin.ext ?_)
    match a with
    | ⟨0, _⟩ => show win0_3.index t (0 : Fin 2) * 1 + 1 * 0 = 0; omega
    | ⟨1, _⟩ => show win0_3.index t (1 : Fin 2) * 512 + 1 * n'.val = win0_4.index t (2 : Fin 3) * 512 + 1 * n'.val; omega

/-- An index of the result lies in point `t`'s block iff each coordinate lies in the block's range on its axis. -/
theorem mem_block (t : Fin cfg0.N) (i : S16x2304x512.Idx) :
    i ∈ ((cfg0.win 4).blk t).view.set ↔ ∀ a : Fin 3, win0_4.index t a * S1x1152x512.size a ≤ (i a).val
      ∧ (i a).val < win0_4.index t a * S1x1152x512.size a + S1x1152x512.size a := by
  show i ∈ ((View.whole main_v6).slice (win0_4.rect t)).set ↔ _
  rw [View.set_slice_whole, Rect.mem_set_unit]
  exact Iff.rfl

/-- The blocks tile the result: row `p` of batch `b` lies in the block of the point with block index (b, p / 1152, 0). -/
theorem cover (i : S16x2304x512.Idx) :
    ∃ t : Fin cfg0.N, (cfg0.win 4).flush t = true ∧ i ∈ ((cfg0.win 4).blk t).view.set := by
  have hi0 : (i 0).val < 16 := (i 0).isLt
  have hi1 : (i 1).val < 2304 := (i 1).isLt
  have hi2 : (i 2).val < 512 := (i 2).isLt
  obtain ⟨t, ht⟩ := block_onto ⟨(i 0).val, hi0⟩ ⟨(i 1).val / 1152, by omega⟩
  have q0 : win0_4.index t (0 : Fin 3) = (i 0).val := congrFun ht 0
  have q1 : win0_4.index t (1 : Fin 3) = (i 1).val / 1152 := congrFun ht 1
  have q2 : win0_4.index t (2 : Fin 3) = 0 := congrFun ht 2
  refine ⟨t, flush0_4 t, ?_⟩
  rw [mem_block]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 1152 ≤ (i 1).val ∧ (i 1).val < win0_4.index t (1 : Fin 3) * 1152 + 1152; omega
  | ⟨2, _⟩ => show win0_4.index t (2 : Fin 3) * 512 ≤ (i 2).val ∧ (i 2).val < win0_4.index t (2 : Fin 3) * 512 + 512; omega

/-- After the run the result array is `result`. -/
theorem final (c : Dev nD) : (dats m 0 c).arrAt 4 cfg0.N = result m c :=
  (dats m 0 c).arrAt_eq_of_cover 4 (result m c) (fun t _ => flushed_eq m c t) cover

/-- The run, read: the result array at the entry-wise value of the operand arrays, the arguments unchanged. -/
theorem run : θ_run defs (onTc (τ := τ) (main (F := Ideal))) ⟨m, fun _ => 0, ρ⟩ fun r => ∀ c : Dev nD,
      r.2.mem ((c : Thread nD τ).loc main_v6) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Cert.KernelIdeal.Value.run_blocks m ρ)

end Cert.KernelIdeal.Blocks

end
-- ==== Proof.HostSide.lean ====
/-
  What the four operand arrays of the blocked computation hold when it starts. Before the grid runs, the program
  lays the points out as 16 × 2304 × 128 (a reshape of the 16 × 48 × 48 × 128 input), rounds the centres to bf16 (the
  identity at the ideal values), sums the centres' squares over the feature axis into a row `[1, 512]` (from the zero
  word, which denotes `0`) and recasts the bias as a row `[1, 512]`. So the value computed from those four arrays is
  the Gaussian kernel of the reshaped points, the centres and the bias.
-/
import proofs.«169911_j31138512896695_2_alg».proof.Proof.Gen.KernelIdeal.Frame
import proofs.«169911_j31138512896695_2_alg».proof.Proof.GaussSpec
import proofs.«169911_j31138512896695_2_alg».proof.Proof.LibKeepdims
import Idealize.ShloMosaic.Lib.StableHlo.Run
import Idealize.ShloMosaic.Lib.ValueLayout
import Idealize.ShloMosaic.PureOps.Ideal.Laws

noncomputable section

namespace Cert.KernelIdeal.HostSide

open Cert.KernelIdeal Cert.KernelIdeal.Gen Idealize.ShloMosaic Idealize.ShloMosaic.TcCoe Idealize.SL.Sem
open Idealize.ShloMosaic.StableHlo Idealize.ShloMosaic.ValueIdx Cert.GaussSpec Cert.LibKeepdims

variable (m : (ℓ : Loc nD τ sig) → Buf (Elt Ideal) ℓ)

/-- The three inputs, as arrays of extended reals. -/
abbrev argX (c : Dev nD) : FVec Ideal S16x48x48x128 .f32 := m ((c : Thread nD τ).loc main_arg0)
abbrev argW (c : Dev nD) : FVec Ideal S128x512 .f32 := m ((c : Thread nD τ).loc main_arg1)
abbrev argB (c : Dev nD) : FVec Ideal S512 .f32 := m ((c : Thread nD τ).loc main_arg2)

/-- The four operand arrays as the grid finds them. -/
abbrev points (c : Dev nD) : FVec Ideal S16x2304x128 .f32 := V m c main_v0
abbrev centres (c : Dev nD) : FVec Ideal S128x512 .bf16 := V m c main_v1
abbrev sqnorms (c : Dev nD) : FVec Ideal S1x512 .f32 := V m c main_v4
abbrev biasRow (c : Dev nD) : FVec Ideal S1x512 .f32 := V m c main_v5

/-- The points as the grid finds them: the input reshaped to 16 × 2304 × 128. -/
theorem points_eq (c : Dev nD) :
    points m c = shapeCast S16x2304x128 (argX m c) shapeCasts_S16x48x48x128_S16x2304x128 := by
  dsimp only [points, argX, Gen.V, Gen.hostOps0]; after_results <;> rfl

/-- The centres as the grid finds them: the input centres, rounded to bf16. -/
theorem centres_eq (c : Dev nD) : centres m c = truncf .bf16 (argW m c) bitsLt_bf16_f32 := by
  dsimp only [centres, argW, Gen.V, Gen.hostOps0]; after_results <;> rfl

/-- The row of squared norms: the centres' squares summed over the feature axis, kept as a row. -/
theorem sqnorm_eq (c : Dev nD) :
    sqnorms m c = broadcastInDim S1x512 ![1] bcast_S512_S1x512_1
          (Host.reduceAdd (F := Ideal) (mulf (argW m c) (argW m c))
            (constant (F := Ideal) S_ .f32 0x00000000#32) reducesTo_S128x512_S512_d0 h_S_) := by
  dsimp only [sqnorms, argW, Gen.V, Gen.hostOps0]; after_results <;> rfl

/-- The bias as a row. -/
theorem bias_eq (c : Dev nD) : biasRow m c = shapeCast S1x512 (argB m c) shapeCasts_S512_S1x512 := by
  dsimp only [biasRow, argB, Gen.V, Gen.hostOps0]; after_results <;> rfl

/-- The host's sum of a 128 × 512 array over its first axis, from the zero word, read at column `n`. -/
theorem colsum_at (y : FVec Ideal S128x512 .f32) (n : Fin 512) :
    Host.reduceAdd (F := Ideal) y (constant (F := Ideal) S_ .f32 0x00000000#32) reducesTo_S128x512_S512_d0 h_S_ (ix1 n)
      = ∑ k : Fin 128, y (ix2 k n) := by
  simp only [Host.reduceAdd, Ideal.hostReduceAdd_def]
  rw [Ideal.hostReduceAdd_single reducesTo_S128x512_S512_d0 (by decide)]
  rw [constant_apply, Ideal.ofBits_zero_f32, zero_add]
  refine Finset.sum_congr rfl fun k _ => ?_
  exact congrArg y (funext fun a => Fin.ext (by match a with | ⟨0, _⟩ => rfl | ⟨1, _⟩ => rfl))

/-- The centres at `(k, n)`: rounding to bf16 changes nothing at the ideal values. -/
theorem centres_at (c : Dev nD) (k : Fin 128) (n : Fin 512) : centres m c (ix2 k n) = argW m c (ix2 k n) := by
  rw [centres_eq]; rfl

/-- The row of squared norms at centre `n`. -/
theorem sqnorm_at (c : Dev nD) (n : Fin 512) :
    sqnorms m c (ix2 (0 : Fin 1) n) = ∑ k : Fin 128, argW m c (ix2 k n) * argW m c (ix2 k n) := by
  rw [sqnorm_eq]
  rw [broadcastInDim_apply _ bcast_S512_S1x512_1 _ (ix2 (0 : Fin 1) n) (ix1 n) (fun a => match a with
    | ⟨0, _⟩ => by show n.val = if (512 : Nat) = 1 then 0 else n.val; rw [if_neg (by decide)])]
  rw [colsum_at]
  rfl

/-- The bias row at centre `n`. -/
theorem bias_at (c : Dev nD) (n : Fin 512) : biasRow m c (ix2 (0 : Fin 1) n) = argB m c (ix1 n) := by
  rw [bias_eq]
  exact shapeCast_a_1a_apply _ _ (0 : Fin 1) n

/-- The value from the four operand arrays is the Gaussian kernel of the reshaped points, the centres and the bias. -/
theorem operands_eq_gauss (c : Dev nD) :
    ofOperands (points m c) (centres m c) (sqnorms m c) (biasRow m c)
      = gauss (shapeCast S16x2304x128 (argX m c) shapeCasts_S16x48x48x128_S16x2304x128) (argW m c) (argB m c) := by
  rw [← points_eq]
  exact ofOperands_eq_gauss _ _ _ _ _ _ (centres_at m c) (sqnorm_at m c) (bias_at m c)

end Cert.KernelIdeal.HostSide

end
-- ==== Proof.RefGauss.lean ====
/-
  The reference computes the Gaussian kernel of the reshaped points. Read one operation at a time, its result at
  `(b, p, n)` is `exp (-1 · (((0 + Σ_k x[b,p,k]²) + (0 + Σ_k w[k,n]²)) - 2 · Σ_k x[b,p,k] · w[k,n])) + bias[n]`, where `x` is
  the 16 × 48 × 48 × 128 input laid out as 16 × 2304 × 128: the two sums start from the zero word, which denotes `0`.
-/
import proofs.«169911_j31138512896695_2_alg».proof.Proof.Gen.ReferenceIdeal.Read
import proofs.«169911_j31138512896695_2_alg».proof.Proof.GaussSpec
import proofs.«169911_j31138512896695_2_alg».proof.Proof.LibKeepdims

noncomputable section

namespace Cert.ReferenceIdeal.RefGauss

open Cert.ReferenceIdeal Cert.ReferenceIdeal.Read Idealize.ShloMosaic Idealize.ShloMosaic.ValueIdx Cert.GaussSpec

/-- The row of `x` that the point's squared norm sums over. -/
theorem row_sq (b : Fin 16) (p : Fin 2304) (n : Fin 512) (k : Fin 128) :
    idx_main_v2 (idx_main_v3 (idx_main_v8 (ix3 b p n))) k = ix3 b p k :=
  funext fun a => Fin.ext (by match a with | ⟨0, _⟩ => rfl | ⟨1, _⟩ => rfl | ⟨2, _⟩ => rfl)

/-- The column of `w` that the centre's squared norm sums over. -/
theorem col_sq (b : Fin 16) (p : Fin 2304) (n : Fin 512) (k : Fin 128) :
    idx_main_v5 (idx_main_v7 (idx_main_v9 (ix3 b p n))) k = ix2 k n :=
  funext fun a => Fin.ext (by match a with | ⟨0, _⟩ => rfl | ⟨1, _⟩ => rfl)

/-- The inner product's left factor runs over the same row, -/
theorem dot_row (b : Fin 16) (p : Fin 2304) (n : Fin 512) (k : Fin 128) :
    lidx_main_v6 (ix3 b p n) k = ix3 b p k :=
  funext fun a => Fin.ext (by match a with | ⟨0, _⟩ => rfl | ⟨1, _⟩ => rfl | ⟨2, _⟩ => rfl)

/-- and its right factor over the same column. -/
theorem dot_col (b : Fin 16) (p : Fin 2304) (n : Fin 512) (k : Fin 128) :
    ridx_main_v6 (ix3 b p n) k = ix2 k n :=
  funext fun a => Fin.ext (by match a with | ⟨0, _⟩ => rfl | ⟨1, _⟩ => rfl)

/-- The bias entry added at centre `n`. -/
theorem bias_at (b : Fin 16) (p : Fin 2304) (n : Fin 512) :
    idx_main_v17 (idx_main_v18 (ix3 b p n)) = ix1 n :=
  funext fun a => Fin.ext (by match a with | ⟨0, _⟩ => rfl)

/-- The reference's result is the Gaussian kernel of the reshaped points, the centres and the bias. -/
theorem result_eq (x0 : (⟨S16x48x48x128, .f32⟩ : BufTy).Contents (Elt Ideal)) (x1 : (⟨S128x512, .f32⟩ : BufTy).Contents (Elt Ideal))
    (x2 : (⟨S512, .f32⟩ : BufTy).Contents (Elt Ideal)) :
    val_main_v19 (F := Ideal) x0 x1 x2 = gauss (val_main_v0 (F := Ideal) x0) x1 x2 := by
  funext i
  obtain ⟨b, p, n, rfl⟩ : ∃ (b : Fin 16) (p : Fin 2304) (n : Fin 512), i = ix3 b p n := ⟨i 0, i 1, i 2, eq_ix3 i⟩
  rw [gauss_ix3]
  unfold gaussAt entry
  simp only [val_main_v19_apply, val_main_v16_apply, val_main_v15_apply, val_main_v14_apply, val_main_cst_2_apply,
    val_main_v13_apply, val_main_v10_apply, val_main_v8_apply, val_main_v3_apply, val_main_v2_apply, val_main_cst_apply,
    val_main_v1_apply, val_main_v9_apply, val_main_v7_apply, val_main_v5_apply, val_main_cst_0_apply, val_main_v4_apply,
    val_main_v12_apply, val_main_v11_apply, val_main_cst_1_apply, val_main_v6_apply, val_main_v18_apply, val_main_v17_apply,
    row_sq, col_sq, dot_row, dot_col, bias_at,
    Ideal.ofBits_def, Ideal.addf_def, Ideal.subf_def, Ideal.mulf_def, Ideal.hostUnary_exp_def, Ideal.ofBits_zero_f32, zero_add]

end Cert.ReferenceIdeal.RefGauss

end
-- ==== Proof.lean ====
/-
  The Gaussian kernel `exp (-‖x − w‖²) + b` of 16 × 2304 points against 512 centres, computed block by block on a
  16 × 2 grid with the squared distance expanded as ‖x‖² + ‖w‖² − 2 x·w, equals the same expansion computed on whole
  arrays, entry by entry on the extended reals.

  Both sides are read as one function of the argument arrays, `GaussSpec.gauss` of the points laid out as
  16 × 2304 × 128, the centres and the bias:
  * the blocked program — each grid point stores the entry-wise value of its four operand arrays on its rows
    (`BodyAt`), the blocks tile the result (`Blocks`), and the operand arrays are the reshaped points, the centres,
    the row of the centres' squared norms and the bias row (`HostSide`);
  * the whole-array program — its operations composed and read at an index (`RefGauss`).
  No law of arithmetic beyond `0 + s = s` joins them: the two sides sum the same products over the same 128 features,
  so finiteness of the inputs is never used. The idealization rewrote nothing, so `preserves` is trivial, and the three
  frames are the programs' runs.
-/
import proofs.«169911_j31138512896695_2_alg».proof.Defs
import proofs.«169911_j31138512896695_2_alg».proof.Proof.Gen.Kernel
import proofs.«169911_j31138512896695_2_alg».proof.Proof.Gen.Kernel.Skeleton
import proofs.«169911_j31138512896695_2_alg».proof.Proof.Gen.Kernel.Launch
import proofs.«169911_j31138512896695_2_alg».proof.Proof.Gen.Kernel.Points
import proofs.«169911_j31138512896695_2_alg».proof.Proof.Gen.Kernel.Frame
import proofs.«169911_j31138512896695_2_alg».proof.Proof.Gen.KernelIdeal
import proofs.«169911_j31138512896695_2_alg».proof.Proof.Gen.KernelIdeal.Skeleton
import proofs.«169911_j31138512896695_2_alg».proof.Proof.Gen.KernelIdeal.Launch
import proofs.«169911_j31138512896695_2_alg».proof.Proof.Gen.KernelIdeal.Points
import proofs.«169911_j31138512896695_2_alg».proof.Proof.Gen.KernelIdeal.Frame
import proofs.«169911_j31138512896695_2_alg».proof.Proof.Gen.ReferenceIdeal
import proofs.«169911_j31138512896695_2_alg».proof.Proof.Gen.Pre_finite_inputs
import proofs.«169911_j31138512896695_2_alg».proof.Proof.Gen.KernelIdeal.Value
import proofs.«169911_j31138512896695_2_alg».proof.Proof.Gen.ReferenceIdeal.Run
import proofs.«169911_j31138512896695_2_alg».proof.Proof.Gen.ReferenceIdeal.Read
import proofs.«169911_j31138512896695_2_alg».proof.Proof.Blocks
import proofs.«169911_j31138512896695_2_alg».proof.Proof.HostSide
import proofs.«169911_j31138512896695_2_alg».proof.Proof.RefGauss
import Idealize.ShloMosaic.Adequacy
import Idealize.ShloMosaic.Init

noncomputable section

namespace Cert.Proof

open Idealize.ShloMosaic Idealize.ShloMosaic.TcCoe Idealize.SL.Sem

/-- The word-level program runs and leaves its arguments unchanged. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- The whole-array program's run, its result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization changed no operation. -/
theorem preserves : Cert.preserves_Kernel_KernelIdeal := trivial

/-- Both programs end with the Gaussian kernel of arguments that agree. -/
theorem algebraic : Cert.algebraic_KernelIdeal_ReferenceIdeal := by
  intro m ρ m' ρ' _ hagree
  refine ⟨fun c => Cert.KernelIdeal.Blocks.result m c, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2, Cert.ReferenceIdeal.Read.val_main_v19_eq,
    Cert.ReferenceIdeal.RefGauss.result_eq]
  exact (Cert.KernelIdeal.HostSide.operands_eq_gauss m c).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
